-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S1024x512 : Shape := ⟨2, ![1024, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S10000x10000 : S_.BroadcastsInDim S10000x10000 (![] : Fin 0 → Fin S10000x10000.rank)
  reducesTo_S10000x10000_S_d0_1 : S10000x10000.ReducesTo [0, 1] S_

variable [Facts]

def fn_part1 {F : FTy → Type} [FloatOps F] (main_arg1 : IVec S10000x10000 32) (main_v13 : IVec S_ 1) (main_v15 : IVec S10000x10000 1) (main_c_5 : IVec S_ 32) : IVec S_ 1 :=
  let main_v16 : IVec S10000x10000 32 := broadcastInDim S10000x10000 ![] bcast_S_S10000x10000 main_c_5
  let main_v17 : IVec S10000x10000 1 := cmpi .eq main_arg1 main_v16
  let main_v18 : IVec S10000x10000 1 := ori main_v15 main_v17
  let main_c_6 : IVec S_ 1 := constantI S_ 1 1#1
  let main_v19 : IVec S_ 1 := (fun x v => Host.reduce IntOp.andi x v reducesTo_S10000x10000_S_d0_1 h_S_) main_v18 main_c_6
  let main_v20 : IVec S_ 1 := andi main_v13 main_v19
  main_v20

def fn {F : FTy → Type} [FloatOps F] (main_arg0 : FVec F S10000x512 .f32) (main_arg1 : IVec S10000x10000 32) (main_arg2 : FVec F S1024x512 .f32) (main_arg3 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S10000x10000 32 := broadcastInDim S10000x10000 ![] bcast_S_S10000x10000 main_c_4
  let main_v15 : IVec S10000x10000 1 := cmpi .eq main_arg1 main_v14
  let main_c_5 : IVec S_ 32 := constantI S_ 32 1#32
  fn_part1 (F := F) main_arg1 main_v13 main_v15 main_c_5
-- ==== Kernel.lean ====
abbrev S10000x512 : Shape := ⟨2, ![10000, 512]⟩
abbrev S10000x10000 : Shape := ⟨2, ![10000, 10000]⟩
abbrev S1024x512 : Shape := ⟨2, ![1024, 512]⟩
abbrev S512 : Shape := ⟨1, ![512]⟩
abbrev S_ : Shape := ⟨0, ![]⟩
abbrev S10000x128 : Shape := ⟨2, ![10000, 128]⟩
abbrev S1 : Shape := ⟨1, ![1]⟩
abbrev S10000 : Shape := ⟨1, ![10000]⟩
abbrev S10000x640 : Shape := ⟨2, ![10000, 640]⟩
abbrev S1x512 : Shape := ⟨2, ![1, 512]⟩
abbrev S400x10000 : Shape := ⟨2, ![400, 10000]⟩
abbrev S400x512 : Shape := ⟨2, ![400, 512]⟩
abbrev S400x640 : Shape := ⟨2, ![400, 640]⟩
abbrev S400x1 : Shape := ⟨2, ![400, 1]⟩
abbrev S512x512 : Shape := ⟨2, ![512, 512]⟩

abbrev nBuf : Space → Nat
  | .hbm => 16
  | .vmem => 7
  | .smem => 0
  | _ => 0

abbrev bufTy : (tb : Table) → Fin (tcTables nBuf tb) → BufTy
  | .hbm, ⟨0, _⟩ => ⟨S10000x512, .f32⟩
  | .hbm, ⟨1, _⟩ => ⟨S10000x10000, .i32⟩
  | .hbm, ⟨2, _⟩ => ⟨S1024x512, .f32⟩
  | .hbm, ⟨3, _⟩ => ⟨S512, .f32⟩
  | .hbm, ⟨4, _⟩ => ⟨S_, .bf16⟩
  | .hbm, ⟨5, _⟩ => ⟨S10000x128, .bf16⟩
  | .hbm, ⟨6, _⟩ => ⟨S_, .i32⟩
  | .hbm, ⟨7, _⟩ => ⟨S1, .i32⟩
  | .hbm, ⟨8, _⟩ => ⟨S_, .bf16⟩
  | .hbm, ⟨9, _⟩ => ⟨S10000, .bf16⟩
  | .hbm, ⟨10, _⟩ => ⟨S10000x128, .bf16⟩
  | .hbm, ⟨11, _⟩ => ⟨S10000x512, .bf16⟩
  | .hbm, ⟨12, _⟩ => ⟨S10000x640, .bf16⟩
  | .hbm, ⟨13, _⟩ => ⟨S1024x512, .bf16⟩
  | .hbm, ⟨14, _⟩ => ⟨S1x512, .f32⟩
  | .hbm, ⟨15, _⟩ => ⟨S10000x512, .f32⟩
  | .local _ .vmem, ⟨0, _⟩ => ⟨S400x10000, .i32⟩
  | .local _ .vmem, ⟨1, _⟩ => ⟨S400x10000, .i32⟩
  | .local _ .vmem, ⟨2, _⟩ => ⟨S10000x640, .bf16⟩
  | .local _ .vmem, ⟨3, _⟩ => ⟨S1024x512, .bf16⟩
  | .local _ .vmem, ⟨4, _⟩ => ⟨S1x512, .f32⟩
  | .local _ .vmem, ⟨5, _⟩ => ⟨S400x512, .f32⟩
  | .local _ .vmem, ⟨6, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_3 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S10000x128 : S_.BroadcastsInDim S10000x128 (![] : Fin 0 → Fin S10000x128.rank)
  bcast_S_S1 : S_.BroadcastsInDim S1 (![] : Fin 0 → Fin S1.rank)
  bcast_S_S10000 : S_.BroadcastsInDim S10000 (![] : Fin 0 → Fin S10000.rank)
  bitsLt_bf16_f32 : FTy.bits .bf16 < FTy.bits .f32
  concatenates_S10000x512_S10000x128_S10000x640_d1 : Shape.Concatenates [S10000x512, S10000x128] S10000x640 1
  shapeCasts_S512_S1x512 : S512.ShapeCasts S1x512
  inb_S400x10000_S400x10000_0_0 : ∀ a, (![0, 0] : Fin 2 → Nat) a + S400x10000.size a ≤ S400x10000.size a
  h_S400x10000 : 0 < S400x10000.numel
  inb_S10000x640_S10000x640_0_0 : ∀ a, (![0, 0] : Fin 2 → Nat) a + S10000x640.size a ≤ S10000x640.size a
  h_S10000x640 : 0 < S10000x640.numel
  shapeCasts_S10000x640_S10000x640 : S10000x640.ShapeCasts S10000x640
  slices_S400x640_o0_0_S400x512 : S400x640.Slices ![0, 0] S400x512
  slices_S400x640_o0_512_S400x1 : S400x640.Slices ![0, 512] S400x1
  broadcasts_S400x1_S400x512 : S400x1.Broadcasts S400x512
  h_S400x512 : 0 < S400x512.numel
  shapeCasts_S400x512_S400x512 : S400x512.ShapeCasts S400x512
  inb_S1024x512_S512x512_0_0 : ∀ a, (![0, 0] : Fin 2 → Nat) a + S512x512.size a ≤ S1024x512.size a
  h_S512x512 : 0 < S512x512.numel
  shapeCasts_S512x512_S512x512 : S512x512.ShapeCasts S512x512
  inb_S1024x512_S512x512_512_0 : ∀ a, (![512, 0] : Fin 2 → Nat) a + S512x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  scatter_S10000x128_S1_S10000_0_1_1_0_wf : ScatterDims.WF S10000x128 S1 S10000 [0] [1] [1] 0
  dot_S400x10000_S10000x640_S400x640_1_0_0_1_n_n_wf : DotDims.WF S400x10000 S10000x640 S400x640 [1] [0] [0] [1] [] []
  dot_S400x512_S512x512_S400x512_1_0_0_1_n_n_wf : DotDims.WF S400x512 S512x512 S400x512 [1] [0] [0] [1] [] []
  hrank0 : 0 < grid0.rank
  k0_off1_inb : ∀ i : grid0.Coords, ∀ a, (k0_off1 i) a + S400x512.size a ≤ S10000x640.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .i32 = 32 ∨ (Rect.block (s := S10000x10000) S400x10000.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x640.size a ≤ S10000x640.size a
  hwx0_1 : ∀ i : grid0.Coords, EltTy.bits .bf16 = 32 ∨ (Rect.block (s := S10000x640) S10000x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x512.size a ≤ S10000x512.size a
  hwx0_4 : ∀ i : grid0.Coords, EltTy.bits .f32 = 32 ∨ (Rect.block (s := S10000x512) S400x512.size (cc0_transform_4 i) (hinb0_4 i)).WholeWords (EltTy.packing .f32)

variable [Facts₀]

def scatter_S10000x128_S1_S10000_0_1_1_0 : ScatterDims S10000x128 S1 S10000 where
  updateWindowDims := [0]
  insertedWindowDims := [1]
  scatterDimsToOperandDims := [1]
  indexVectorDim := 0
  wf := scatter_S10000x128_S1_S10000_0_1_1_0_wf
def dot_S400x10000_S10000x640_S400x640_1_0_0_1_n_n : DotDims S400x10000 S10000x640 S400x640 where
  lhsContracting := [1]
  rhsContracting := [0]
  lhsNonContracting := [0]
  rhsNonContracting := [1]
  lhsBatch := []
  rhsBatch := []
  wf := dot_S400x10000_S10000x640_S400x640_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S400x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S1024x512 : Shape := ⟨2, ![1024, 512]⟩
abbrev S512 : Shape := ⟨1, ![512]⟩
abbrev S_ : Shape := ⟨0, ![]⟩
abbrev S10000 : Shape := ⟨1, ![10000]⟩
abbrev S10000x1 : Shape := ⟨2, ![10000, 1]⟩
abbrev S10000x1024 : Shape := ⟨2, ![10000, 1024]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .i32⟩
  | .hbm, ⟨2, _⟩ => ⟨S1024x512, .f32⟩
  | .hbm, ⟨3, _⟩ => ⟨S512, .f32⟩
  | .hbm, ⟨4, _⟩ => ⟨S_, .i32⟩
  | .hbm, ⟨5, _⟩ => ⟨S10000x10000, .i32⟩
  | .hbm, ⟨6, _⟩ => ⟨S10000x10000, .i1⟩
  | .hbm, ⟨7, _⟩ => ⟨S10000x10000, .f32⟩
  | .hbm, ⟨8, _⟩ => ⟨S_, .f32⟩
  | .hbm, ⟨9, _⟩ => ⟨S10000, .f32⟩
  | .hbm, ⟨10, _⟩ => ⟨S10000x512, .f32⟩
  | .hbm, ⟨11, _⟩ => ⟨S10000x1, .f32⟩
  | .hbm, ⟨12, _⟩ => ⟨S10000x512, .f32⟩
  | .hbm, ⟨13, _⟩ => ⟨S10000x512, .f32⟩
  | .hbm, ⟨14, _⟩ => ⟨S10000x1024, .f32⟩
  | .hbm, ⟨15, _⟩ => ⟨S10000x512, .f32⟩
  | .hbm, ⟨16, _⟩ => ⟨S1x512, .f32⟩
  | .hbm, ⟨17, _⟩ => ⟨S10000x512, .f32⟩
  | .hbm, ⟨18, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  concatenates_S10000x512_S10000x512_S10000x1024_d1 : Shape.Concatenates [S10000x512, S10000x512] S10000x1024 1
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x10000_S10000x512_S10000x512_1_0_0_1_n_n_wf : DotDims.WF S10000x10000 S10000x512 S10000x512 [1] [0] [0] [1] [] []
  dot_S10000x1024_S1024x512_S10000x512_1_0_0_1_n_n_wf : DotDims.WF S10000x1024 S1024x512 S10000x512 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x1024_S1024x512_S10000x512_1_0_0_1_n_n : DotDims S10000x1024 S1024x512 S10000x512 where
  lhsContracting := [1]
  rhsContracting := [0]
  lhsNonContracting := [0]
  rhsNonContracting := [1]
  lhsBatch := []
  rhsBatch := []
  wf := dot_S10000x1024_S1024x512_S10000x512_1_0_0_1_n_n_wf

class Facts : Prop extends Facts₀ where

variable [Facts]
-- ==== Proof.BodyValue.lean ====
/-
  What one grid step leaves in the output block, as a value.

  The body of the kernel runs once per strip of 400 rows. It reads the strip of the adjacency matrix, the whole
  resident feature table (the features with a column of ones and zero padding appended), the strip's own rows of
  that table, the two halves of the weight matrix and the bias row, and ends with ONE store that covers the whole
  output block. So the block it leaves is the stored value: the body's arithmetic applied to those reads.
-/
import proofs.«136506_g85529978732852_cont_9to1c4b_72_21_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

/-- The strip's own 400 rows and first 512 columns of the resident table `T`. -/
abbrev ownRows (i : grid0.Coords) (T : Vec F S10000x640 .bf16) : Vec F S400x512 .bf16 :=
  View.ld T (Rect.unit (s := S10000x640) (k0_off1 i) S400x512.size (k0_off1_inb i))

/-- Rows 0 … 511 of the weight matrix `W`. -/
abbrev topHalf (W : Vec F S1024x512 .bf16) : Vec F S512x512 .bf16 :=
  View.ld W (Rect.unit (s := S1024x512) ![0, 0] S512x512.size inb_S1024x512_S512x512_0_0)

/-- Rows 512 … 1023 of the weight matrix `W`. -/
abbrev bottomHalf (W : Vec F S1024x512 .bf16) : Vec F S512x512 .bf16 :=
  View.ld W (Rect.unit (s := S1024x512) ![512, 0] S512x512.size inb_S1024x512_S512x512_512_0)

/-- The output block after the body: its one covering store's value, whose operands are the whole adjacency strip
    `A`, the whole table `T`, the strip's own rows of `T`, the two halves of `W` and the bias row `b`. -/
theorem block_eq (c : Dev nD) (i : grid0.Coords) (arg1 : Memref sig .tc .vmem S400x10000 .i32) (harg1 : arg1.IsWhole)
    (arg2 : Memref sig .tc .vmem S10000x640 .bf16) (harg2 : arg2.IsWhole)
    (arg3 : Memref sig .tc .vmem S1024x512 .bf16) (harg3 : arg3.IsWhole)
    (arg4 : Memref sig .tc .vmem S1x512 .f32) (harg4 : arg4.IsWhole)
    (arg5 : Memref sig .tc .vmem S400x512 .f32) (harg5 : arg5.IsWhole)
    (A : Vec F S400x10000 .i32) (T : Vec F S10000x640 .bf16) (W : Vec F S1024x512 .bf16) (b : Vec F S1x512 .f32) :
    out0_A_4 c i arg1 harg1 arg2 harg2 arg3 harg3 arg4 harg4 arg5 harg5 A T W b
      = k0_pay1 A T (ownRows i T) (topHalf W) (bottomHalf W) b := by
  unfold out0_A_4
  rw [View.read_writes_eq_canon _ _ _ (cover0_A_4 c i arg1 harg1 arg2 harg2 arg3 harg3 arg4 harg4 arg5 harg5 A T W b)]
  unfold kernelRun0_A
  dsimp only
  rw [View.canon_unit_zero hz]
  simp only [View.readAt_eq_ld, harg1.read_unread, harg2.read_unread, harg3.read_unread, harg4.read_unread,
    View.ld_unit_zero (S := S400x10000) hz, View.ld_unit_zero (S := S10000x640) hz, View.ld_unit_zero (S := S1x512) hz]

end Cert.KernelIdeal.BodyValue

end
-- ==== Proof.BodyOps.lean ====
/-
  THE KERNEL BODY'S OPERATIONS READ AT AN INDEX, on the extended reals.

  A matrix product into a zero accumulator is the plain sum over the contracted index of the products of the entries;
  a slice reads its operand at the shifted index; a column broadcast along the rows reads the column's entry of the
  row; a row broadcast down the rows reads the row's entry of the column.
-/
import proofs.«136506_g85529978732852_cont_9to1c4b_72_21_alg».proof.Proof.Gen.KernelIdeal
import Idealize.ShloMosaic.Lib.Pipeline.Value
import Idealize.ShloMosaic.Lib.ValueIdx
import Idealize.ShloMosaic.PureOps.Ideal.Laws

set_option maxRecDepth 16384

noncomputable section

namespace Cert.KernelIdeal.BodyOps

open Cert.KernelIdeal Cert.KernelIdeal.Gen
open Idealize.ShloMosaic Idealize.ShloMosaic.ValueIdx

/-- Column `d` of the features inside the resident table (features, then the column of ones, then zeros). -/
abbrev featCol (d : Fin 512) : Fin 640 := ⟨d.val, by omega⟩
/-- The table's column of ones. -/
abbrev onesCol : Fin 640 := ⟨512, by omega⟩

/-! ## The two matrix products -/

theorem agg_lhs0 (i : S400x640.Idx) (q : dot_S400x10000_S10000x640_S400x640_1_0_0_1_n_n.contr.Idx) : (dot_S400x10000_S10000x640_S400x640_1_0_0_1_n_n.lhsIdx i q 0).val = (i 0).val := by
  unfold DotDims.lhsIdx
  rw [dif_neg (show ¬(0 : Fin S400x10000.rank) ∈ dot_S400x10000_S10000x640_S400x640_1_0_0_1_n_n.lhsBatch by decide), dif_pos (show (0 : Fin S400x10000.rank) ∈ dot_S400x10000_S10000x640_S400x640_1_0_0_1_n_n.lhsNonContracting by decide)]
  rfl
theorem agg_lhs1 (i : S400x640.Idx) (q : dot_S400x10000_S10000x640_S400x640_1_0_0_1_n_n.contr.Idx) : (dot_S400x10000_S10000x640_S400x640_1_0_0_1_n_n.lhsIdx i q 1).val = (q ⟨0, by decide⟩).val :=
  dot_S400x10000_S10000x640_S400x640_1_0_0_1_n_n.lhsIdx_val_of_single rfl i q
theorem agg_rhs0 (i : S400x640.Idx) (q : dot_S400x10000_S10000x640_S400x640_1_0_0_1_n_n.contr.Idx) : (dot_S400x10000_S10000x640_S400x640_1_0_0_1_n_n.rhsIdx i q 0).val = (q ⟨0, by decide⟩).val :=
  dot_S400x10000_S10000x640_S400x640_1_0_0_1_n_n.rhsIdx_val_of_single rfl i q
theorem agg_rhs1 (i : S400x640.Idx) (q : dot_S400x10000_S10000x640_S400x640_1_0_0_1_n_n.contr.Idx) : (dot_S400x10000_S10000x640_S400x640_1_0_0_1_n_n.rhsIdx i q 1).val = (i 1).val := by
  unfold DotDims.rhsIdx
  rw [dif_neg (show ¬(1 : Fin S10000x640.rank) ∈ dot_S400x10000_S10000x640_S400x640_1_0_0_1_n_n.rhsBatch by decide), dif_pos (show (1 : Fin S10000x640.rank) ∈ dot_S400x10000_S10000x640_S400x640_1_0_0_1_n_n.rhsNonContracting by decide)]
  rfl

/-- The strip's mask times the resident table, at row `p` and column `c`: the sum over the 10000 nodes. -/
theorem agg_apply (L : FVec Ideal S400x10000 .bf16) (R : FVec Ideal S10000x640 .bf16) (p : Fin 400) (c : Fin 640) :
    matmul dot_S400x10000_S10000x640_S400x640_1_0_0_1_n_n none L R (constant (F := Ideal) S400x640 .f32 0x00000000#32) (ix2 p c)
      = ∑ k : Fin 10000, L (ix2 p k) * R (ix2 k c) := by
  simp only [matmul]
  rw [Ideal.matmul_constant_zero_apply, ← Equiv.sum_comp (contrEquiv1 dot_S400x10000_S10000x640_S400x640_1_0_0_1_n_n 10000 rfl rfl).symm]
  refine Finset.sum_congr rfl fun k _ => ?_
  have hk := contrEquiv1_symm_val dot_S400x10000_S10000x640_S400x640_1_0_0_1_n_n 10000 rfl rfl k
  have el : dot_S400x10000_S10000x640_S400x640_1_0_0_1_n_n.lhsIdx (ix2 p c) ((contrEquiv1 dot_S400x10000_S10000x640_S400x640_1_0_0_1_n_n 10000 rfl rfl).symm k) = ix2 p k := funext fun a => Fin.ext (by
    match a with
    | ⟨0, _⟩ => exact agg_lhs0 _ _
    | ⟨1, _⟩ => exact (agg_lhs1 _ _).trans hk)
  have er : dot_S400x10000_S10000x640_S400x640_1_0_0_1_n_n.rhsIdx (ix2 p c) ((contrEquiv1 dot_S400x10000_S10000x640_S400x640_1_0_0_1_n_n 10000 rfl rfl).symm k) = ix2 k c := funext fun a => Fin.ext (by
    match a with
    | ⟨0, _⟩ => exact (agg_rhs0 _ _).trans hk
    | ⟨1, _⟩ => exact agg_rhs1 _ _)
  rw [el, er]

theorem lin_lhs0 (i : S400x512.Idx) (q : dot_S400x512_S512x512_S400x512_1_0_0_1_n_n.contr.Idx) : (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
theorem lin_lhs1 (i : S400x512.Idx) (q : dot_S400x512_S512x512_S400x512_1_0_0_1_n_n.contr.Idx) : (dot_S400x512_S512x512_S400x512_1_0_0_1_n_n.lhsIdx i q 1).val = (q ⟨0, by decide⟩).val :=
  dot_S400x512_S512x512_S400x512_1_0_0_1_n_n.lhsIdx_val_of_single rfl i q
theorem lin_rhs0 (i : S400x512.Idx) (q : dot_S400x512_S512x512_S400x512_1_0_0_1_n_n.contr.Idx) : (dot_S400x512_S512x512_S400x512_1_0_0_1_n_n.rhsIdx i q 0).val = (q ⟨0, by decide⟩).val :=
  dot_S400x512_S512x512_S400x512_1_0_0_1_n_n.rhsIdx_val_of_single rfl i q
theorem lin_rhs1 (i : S400x512.Idx) (q : dot_S400x512_S512x512_S400x512_1_0_0_1_n_n.contr.Idx) : (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- A strip of 512 features times a 512 × 512 half of the weights, at row `p` and column `j`. -/
theorem lin_apply (L : FVec Ideal S400x512 .bf16) (R : FVec Ideal S512x512 .bf16) (p : Fin 400) (j : Fin 512) :
    matmul dot_S400x512_S512x512_S400x512_1_0_0_1_n_n none L R (constant (F := Ideal) S400x512 .f32 0x00000000#32) (ix2 p j)
      = ∑ d : Fin 512, L (ix2 p d) * R (ix2 d j) := by
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p j) ((contrEquiv1 dot_S400x512_S512x512_S400x512_1_0_0_1_n_n 512 rfl rfl).symm k) = ix2 p k := funext fun a => Fin.ext (by
    match a with
    | ⟨0, _⟩ => exact lin_lhs0 _ _
    | ⟨1, _⟩ => exact (lin_lhs1 _ _).trans hk)
  have er : dot_S400x512_S512x512_S400x512_1_0_0_1_n_n.rhsIdx (ix2 p j) ((contrEquiv1 dot_S400x512_S512x512_S400x512_1_0_0_1_n_n 512 rfl rfl).symm k) = ix2 k j := funext fun a => Fin.ext (by
    match a with
    | ⟨0, _⟩ => exact (lin_rhs0 _ _).trans hk
    | ⟨1, _⟩ => exact lin_rhs1 _ _)
  rw [el, er]

/-! ## The slices and the broadcasts -/

variable {α : Type}

/-- The first 512 columns of a 400 × 640 block. -/
theorem featSlice_apply (v : S400x640.Idx → α) (p : Fin 400) (d : Fin 512) :
    extractStridedSlice S400x512 ![0, 0] v Facts₀.slices_S400x640_o0_0_S400x512 (ix2 p d) = v (ix2 p (featCol d)) :=
  extractStridedSlice_apply _ v _ (ix2 p d) (ix2 p (featCol d)) fun a => by
    match a with
    | ⟨0, _⟩ => show p.val = 0 + p.val; omega
    | ⟨1, _⟩ => show d.val = 0 + d.val; omega

/-- Column 512 of a 400 × 640 block, as a 400 × 1 column. -/
theorem onesSlice_apply (v : S400x640.Idx → α) (p : Fin 400) (u : Fin 1) :
    extractStridedSlice S400x1 ![0, 512] v Facts₀.slices_S400x640_o0_512_S400x1 (ix2 p u) = v (ix2 p onesCol) :=
  extractStridedSlice_apply _ v _ (ix2 p u) (ix2 p onesCol) fun a => by
    match a with
    | ⟨0, _⟩ => show p.val = 0 + p.val; omega
    | ⟨1, _⟩ => show 512 = 512 + u.val; omega

/-- A 400 × 1 column broadcast along the 512 columns reads the column's entry of the row. -/
theorem colSpread_apply (v : S400x1.Idx → α) (p : Fin 400) (d : Fin 512) :
    broadcastTo S400x512 v Facts₀.broadcasts_S400x1_S400x512 (ix2 p d) = v (ix2 p (0 : Fin 1)) :=
  broadcastTo_apply v _ (ix2 p d) (ix2 p (0 : Fin 1)) fun a => by
    match a with
    | ⟨0, _⟩ => show p.val = if (400 : Nat) = 1 then 0 else p.val; rw [if_neg (by decide)]
    | ⟨1, _⟩ => show 0 = if (1 : Nat) = 1 then 0 else d.val; rw [if_pos rfl]

/-- A 1 × 512 row broadcast down the 400 rows reads the row's entry of the column. -/
theorem rowSpread_apply (v : S1x512.Idx → α) (p : Fin 400) (j : Fin 512) :
    broadcastTo S400x512 v Facts₀.broadcasts_S1x512_S400x512 (ix2 p j) = v (ix2 (0 : Fin 1) j) :=
  broadcastTo_apply v _ (ix2 p j) (ix2 (0 : Fin 1) j) fun a => by
    match a with
    | ⟨0, _⟩ => show 0 = if (1 : Nat) = 1 then 0 else p.val; rw [if_pos rfl]
    | ⟨1, _⟩ => show j.val = if (512 : Nat) = 1 then 0 else j.val; rw [if_neg (by decide)]

end Cert.KernelIdeal.BodyOps

end
-- ==== Proof.Payload.lean ====
/-
  THE BODY'S ARITHMETIC AT ONE OUTPUT ENTRY.

  For row `p` of the strip and output column `j`, with `A` the strip of the adjacency matrix, `T` the resident table,
  `own` the strip's own feature rows, `Wt` and `Wb` the two halves of the weights and `b` the bias row:

      ∑_d ( (∑_k A[p,k] · T[k,d]) / (∑_k A[p,k] · T[k,512]) ) · Wt[d,j]  +  ∑_d own[p,d] · Wb[d,j]  +  b[0,j],

  the entries of `A` read as signed numbers. The changes of float format in the body are the identity on the extended
  reals, and the casts of a block to its own shape do nothing.
-/
import proofs.«136506_g85529978732852_cont_9to1c4b_72_21_alg».proof.Proof.Gen.KernelIdeal.Skeleton
import proofs.«136506_g85529978732852_cont_9to1c4b_72_21_alg».proof.Proof.BodyOps

set_option maxRecDepth 16384

noncomputable section

namespace Cert.KernelIdeal.BodyOps

open Cert.KernelIdeal Cert.KernelIdeal.Gen
open Idealize.ShloMosaic Idealize.ShloMosaic.ValueIdx

/-- The mean of the neighbours' feature `d` as the body computes it for row `p`: the product's feature column over
    its column of ones. -/
theorem mean_apply (A : Vec Ideal S400x10000 .i32) (T : FVec Ideal S10000x640 .bf16) (p : Fin 400) (d : Fin 512) :
    divf (extractStridedSlice S400x512 ![0, 0]
        (matmul dot_S400x10000_S10000x640_S400x640_1_0_0_1_n_n none (sitofp (F := Ideal) .bf16 A) T (constant (F := Ideal) S400x640 .f32 0x00000000#32))
        Facts₀.slices_S400x640_o0_0_S400x512)
      (broadcastTo S400x512 (extractStridedSlice S400x1 ![0, 512]
        (matmul dot_S400x10000_S10000x640_S400x640_1_0_0_1_n_n none (sitofp (F := Ideal) .bf16 A) T (constant (F := Ideal) S400x640 .f32 0x00000000#32))
        Facts₀.slices_S400x640_o0_512_S400x1) Facts₀.broadcasts_S400x1_S400x512) (ix2 p d)
      = Ideal.div (∑ k : Fin 10000, (((A (ix2 p k)).toInt : ℝ) : EReal) * T (ix2 k (featCol d)))
          (∑ k : Fin 10000, (((A (ix2 p k)).toInt : ℝ) : EReal) * T (ix2 k onesCol)) := by
  show Ideal.div _ _ = _
  rw [featSlice_apply, colSpread_apply, onesSlice_apply, agg_apply, agg_apply]
  rfl

/-- The stored value at row `p`, column `j`. -/
theorem payload_apply (A : Vec Ideal S400x10000 .i32) (T : FVec Ideal S10000x640 .bf16) (own : FVec Ideal S400x512 .bf16)
    (Wt Wb : FVec Ideal S512x512 .bf16) (b : FVec Ideal S1x512 .f32) (p : Fin 400) (j : Fin 512) :
    k0_pay1 (F := Ideal) A T own Wt Wb b (ix2 p j)
      = (∑ d : Fin 512, Ideal.div (∑ k : Fin 10000, (((A (ix2 p k)).toInt : ℝ) : EReal) * T (ix2 k (featCol d)))
            (∑ k : Fin 10000, (((A (ix2 p k)).toInt : ℝ) : EReal) * T (ix2 k onesCol)) * Wt (ix2 d j)
          + ∑ d : Fin 512, own (ix2 p d) * Wb (ix2 d j)) + b (ix2 (0 : Fin 1) j) := by
  unfold k0_pay1
  simp only [shapeCast_self]
  show (_ + _) + _ = (_ + _) + _
  refine congrArg₂ (· + ·) (congrArg₂ (· + ·) ?_ ?_) ?_
  · refine (lin_apply _ _ p j).trans (Finset.sum_congr rfl fun d _ => ?_)
    exact congrArg (· * Wt (ix2 d j)) (mean_apply A T p d)
  · exact lin_apply _ _ p j
  · exact rowSpread_apply _ p j

end Cert.KernelIdeal.BodyOps

end
-- ==== Proof.LibScatterSet.lean ====
/-
  THE HOST SCATTER WHOSE BODY RETURNS THE UPDATE (`x.at[…].set(v)`), READ AT ONE ELEMENT.

  `Host.scatter d (fun _ b => b) x idx upd` is a left fold over the update positions in row-major order; each
  step overwrites the operand's element at the position's result index, when it has one. Read at a fixed
  element `i'` of the result this is: the operand's element when no update position lands on `i'`
  (`scatter_set_of_no_hit`), and the update's element at a position that does, provided all the positions
  landing on `i'` carry the same value (`scatter_set_of_hit`; in particular when only one position lands there).
  Both follow from the same two statements about the fold over an arbitrary list of update positions
  (`foldl_set_of_no_hit`, `foldl_set_of_hit`), by induction on the list from its last element.
-/
import Idealize.ShloMosaic.PureOps
import Idealize.ShloMosaic.Lib.ValueIdx

namespace Idealize.ShloMosaic.LibScatterSet

open Idealize.ShloMosaic Idealize.ShloMosaic.ValueIdx

section General
variable {s si u : Shape} {α : Type} {w : Nat}

/-- One step of the scatter's fold with the body that returns the update: the running result `r` with the
    element at update position `j`'s result index replaced by the update's element at `j`, and `r` itself when
    `j` has no result index (its window leaves the operand). -/
def setStep (d : ScatterDims s si u) (idx : IVec si w) (upd : u.Idx → α) (r : s.Idx → α) (j : u.Idx) : s.Idx → α :=
  match d.resultIdx? j idx with
  | some i => fun i' => if i' = i then upd j else r i'
  | none => r

/-- A step at a position whose result index is `i'` writes the update's element there. -/
theorem setStep_of_eq (d : ScatterDims s si u) (idx : IVec si w) (upd : u.Idx → α) (r : s.Idx → α) (j : u.Idx)
    (i' : s.Idx) (h : d.resultIdx? j idx = some i') : setStep d idx upd r j i' = upd j := by
  unfold setStep; rw [h]; exact if_pos rfl

/-- A step at a position whose result index is not `i'` leaves the element at `i'` as it was. -/
theorem setStep_of_ne (d : ScatterDims s si u) (idx : IVec si w) (upd : u.Idx → α) (r : s.Idx → α) (j : u.Idx)
    (i' : s.Idx) (h : d.resultIdx? j idx ≠ some i') : setStep d idx upd r j i' = r i' := by
  unfold setStep
  cases hr : d.resultIdx? j idx with
  | none => rfl
  | some i =>
    have hne : i' ≠ i := fun e => h (by rw [hr, e])
    exact if_neg hne

/-- The scatter with the body that returns the update is the fold of `setStep` over the update positions in
    row-major order. -/
theorem scatter_set_eq_foldl (d : ScatterDims s si u) (x : s.Idx → α) (idx : IVec si w) (upd : u.Idx → α) :
    Host.scatter d (fun _ b => b) x idx upd
      = (List.finRange u.numel).foldl (fun r n => setStep d idx upd r (u.rowMajor.symm n)) x := rfl

/-- The fold of the steps over any list of update positions, read at an element that none of the list's
    positions lands on: the starting value's element. -/
theorem foldl_set_of_no_hit {β : Type} (d : ScatterDims s si u) (idx : IVec si w) (upd : u.Idx → α) (g : β → u.Idx)
    (i' : s.Idx) (l : List β) (x : s.Idx → α) (h : ∀ n ∈ l, d.resultIdx? (g n) idx ≠ some i') :
    l.foldl (fun r n => setStep d idx upd r (g n)) x i' = x i' := by
  induction l using List.reverseRecOn with
  | nil => rfl
  | append_singleton l n ih =>
    rw [List.foldl_append, List.foldl_cons, List.foldl_nil,
      setStep_of_ne d idx upd _ (g n) i' (h n (by simp))]
    exact ih fun m hm => h m (by simp [hm])

/-- The fold of the steps over any list of update positions, read at an element `i'` that a position of the
    list lands on, when every position of the list that lands on `i'` carries the value `v`: it is `v`. -/
theorem foldl_set_of_hit {β : Type} (d : ScatterDims s si u) (idx : IVec si w) (upd : u.Idx → α) (g : β → u.Idx)
    (i' : s.Idx) (v : α) (l : List β) (x : s.Idx → α) (hex : ∃ n ∈ l, d.resultIdx? (g n) idx = some i')
    (hv : ∀ n ∈ l, d.resultIdx? (g n) idx = some i' → upd (g n) = v) :
    l.foldl (fun r n => setStep d idx upd r (g n)) x i' = v := by
  induction l using List.reverseRecOn with
  | nil => obtain ⟨n, hn, _⟩ := hex; exact absurd hn (List.not_mem_nil)
  | append_singleton l n ih =>
    rw [List.foldl_append, List.foldl_cons, List.foldl_nil]
    by_cases hn : d.resultIdx? (g n) idx = some i'
    · rw [setStep_of_eq d idx upd _ (g n) i' hn]
      exact hv n (by simp) hn
    · rw [setStep_of_ne d idx upd _ (g n) i' hn]
      refine ih ?_ fun m hm => hv m (by simp [hm])
      obtain ⟨m, hm, hmi⟩ := hex
      rcases List.mem_append.1 hm with hml | hmn
      · exact ⟨m, hml, hmi⟩
      · obtain rfl : m = n := by simpa using hmn
        exact absurd hmi hn

/-- THE SET-SCATTER AT AN ELEMENT NO UPDATE LANDS ON: the operand's element. -/
theorem scatter_set_of_no_hit (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [scatter_set_eq_foldl]
  exact foldl_set_of_no_hit d idx upd (fun n => u.rowMajor.symm n) i' _ x fun n _ => h _

/-- THE SET-SCATTER AT AN ELEMENT AN UPDATE LANDS ON: the update's element at a position `j` that lands there,
    when every position landing there carries the same value as `j` (so the order of the writes is immaterial). -/
theorem scatter_set_of_hit (d : ScatterDims s si u) (x : s.Idx → α) (idx : IVec si w) (upd : u.Idx → α)
    (i' : s.Idx) (j : u.Idx) (hj : d.resultIdx? j idx = some i')
    (huniq : ∀ j', d.resultIdx? j' idx = some i' → upd j' = upd j) :
    Host.scatter d (fun _ b => b) x idx upd i' = upd j := by
  rw [scatter_set_eq_foldl]
  refine foldl_set_of_hit d idx upd (fun n => u.rowMajor.symm n) i' (upd j) _ x ?_ fun n _ hn => huniq _ hn
  exact ⟨u.rowMajor j, List.mem_finRange _, by rw [Equiv.symm_apply_apply]; exact hj⟩

/-- The set-scatter at an element that exactly the update position `j` lands on: the update's element at `j`. -/
theorem scatter_set_of_unique_hit (d : ScatterDims s si u) (x : s.Idx → α) (idx : IVec si w) (upd : u.Idx → α)
    (i' : s.Idx) (j : u.Idx) (hj : d.resultIdx? j idx = some i')
    (huniq : ∀ j', d.resultIdx? j' idx = some i' → j' = j) :
    Host.scatter d (fun _ b => b) x idx upd i' = upd j :=
  scatter_set_of_hit d x idx upd i' j hj fun j' hj' => by rw [huniq j' hj']

end General

/-! ## Words: a small natural number read back signed -/

/-- A natural number below `2 ^ 31`, as a 32-bit word read signed, is itself. -/
theorem toInt_ofNat_of_lt (n : Nat) (h : n < 2 ^ 31) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

/-! ## A column write: `x.at[:, col].set(v)`

The operand is `[B, N]`, the updates `[B]`, the scatter indices the one-entry vector `[col]`: update window axis `0`
of the updates goes to operand axis `0`, operand axis `1` is inserted and takes its start from the index vector
(`update_window_dims = [0]`, `inserted_window_dims = [1]`, `scatter_dims_to_operand_dims = [1]`,
`index_vector_dim = 0`). Update position `r` lands on `(r, col)`. -/

section Column
variable {α : Type} {B N : Nat}

/-- A rank-1 index's coordinate is below the extent, written as `n` itself so that `omega` can use it. -/
theorem idx1_lt {n : Nat} (j : (⟨1, ![n]⟩ : Shape).Idx) : (j 0).val < n := (j 0).isLt

/-- The result index of update position `j` of a column write at column `col` (inside the operand, and small enough
    to be read back signed from its word): row `j 0`, column `col`. The dimension numbers are given by their fields,
    so that the statement applies to any record with these fields, whatever the proof of its conditions. -/
theorem column_resultIdx (d : ScatterDims ⟨2, ![B, N]⟩ ⟨1, ![1]⟩ ⟨1, ![B]⟩)
    (huw : d.updateWindowDims = [0]) (hiw : d.insertedWindowDims = [1]) (hsd : d.scatterDimsToOperandDims = [1])
    (hiv : d.indexVectorDim = 0) (idx : IVec ⟨1, ![1]⟩ 32) (col : Nat) (hidx : ∀ k, idx k = BitVec.ofNat 32 col)
    (hcol : col < N) (h31 : col < 2 ^ 31) (j : (⟨1, ![B]⟩ : Shape).Idx) :
    d.resultIdx? j idx = some (ix2 ⟨(j 0).val, idx1_lt j⟩ ⟨col, hcol⟩) := by
  obtain ⟨uw, iw, sd, iv, wf⟩ := d
  dsimp only at huw hiw hsd hiv
  subst huw hiw hsd hiv
  have hs0 : ScatterDims.start ⟨[0], [1], [1], 0, wf⟩ j idx 0 = 0 := rfl
  have hs1 : ScatterDims.start ⟨[0], [1], [1], 0, wf⟩ j idx 1 = (col : Int) := by
    unfold ScatterDims.start
    rw [dif_pos (List.mem_singleton.mpr rfl), hidx, toInt_ofNat_of_lt col h31]
  have hw0 : ScatterDims.window ⟨[0], [1], [1], 0, wf⟩ j 0 = (j 0).val := rfl
  have hw1 : ScatterDims.window ⟨[0], [1], [1], 0, wf⟩ j 1 = 0 := rfl
  have hj : (j 0).val < B := (j 0).isLt
  have hall : ∀ a, 0 ≤ ScatterDims.start ⟨[0], [1], [1], 0, wf⟩ j idx a + ScatterDims.window ⟨[0], [1], [1], 0, wf⟩ j a
      ∧ ScatterDims.start ⟨[0], [1], [1], 0, wf⟩ j idx a + ScatterDims.window ⟨[0], [1], [1], 0, wf⟩ j a
        < (⟨2, ![B, N]⟩ : Shape).size a := by
    intro a
    match a with
    | ⟨0, _⟩ =>
      show 0 ≤ ScatterDims.start ⟨[0], [1], [1], 0, wf⟩ j idx 0 + ScatterDims.window ⟨[0], [1], [1], 0, wf⟩ j 0
        ∧ ScatterDims.start ⟨[0], [1], [1], 0, wf⟩ j idx 0 + ScatterDims.window ⟨[0], [1], [1], 0, wf⟩ j 0 < (B : Int)
      rw [hs0, hw0]; omega
    | ⟨1, _⟩ =>
      show 0 ≤ ScatterDims.start ⟨[0], [1], [1], 0, wf⟩ j idx 1 + ScatterDims.window ⟨[0], [1], [1], 0, wf⟩ j 1
        ∧ ScatterDims.start ⟨[0], [1], [1], 0, wf⟩ j idx 1 + ScatterDims.window ⟨[0], [1], [1], 0, wf⟩ j 1 < (N : Int)
      rw [hs1, hw1]; omega
  unfold ScatterDims.resultIdx?
  rw [dif_pos hall]
  congr 1
  funext a
  match a with
  | ⟨0, _⟩ =>
    refine Fin.ext ?_
    show (ScatterDims.start ⟨[0], [1], [1], 0, wf⟩ j idx 0 + ScatterDims.window ⟨[0], [1], [1], 0, wf⟩ j 0).toNat = (j 0).val
    rw [hs0, hw0]; omega
  | ⟨1, _⟩ =>
    refine Fin.ext ?_
    show (ScatterDims.start ⟨[0], [1], [1], 0, wf⟩ j idx 1 + ScatterDims.window ⟨[0], [1], [1], 0, wf⟩ j 1).toNat = col
    rw [hs1, hw1]; omega

/-- THE COLUMN WRITE AT AN ELEMENT: row `r`, column `c'` of the result is the update's element `r` when `c'` is the
    written column, and the operand's element otherwise. -/
theorem scatter_set_column (d : ScatterDims ⟨2, ![B, N]⟩ ⟨1, ![1]⟩ ⟨1, ![B]⟩)
    (huw : d.updateWindowDims = [0]) (hiw : d.insertedWindowDims = [1]) (hsd : d.scatterDimsToOperandDims = [1])
    (hiv : d.indexVectorDim = 0) (x : (⟨2, ![B, N]⟩ : Shape).Idx → α) (idx : IVec ⟨1, ![1]⟩ 32) (col : Nat)
    (hidx : ∀ k, idx k = BitVec.ofNat 32 col) (hcol : col < N) (h31 : col < 2 ^ 31)
    (upd : (⟨1, ![B]⟩ : Shape).Idx → α) (r : Fin B) (c' : Fin N) :
    Host.scatter d (fun _ b => b) x idx upd (ix2 r c') = if c'.val = col then upd (ix1 r) else x (ix2 r c') := by
  have hres := column_resultIdx d huw hiw hsd hiv idx col hidx hcol h31
  by_cases hc : c'.val = col
  · rw [if_pos hc]
    refine scatter_set_of_unique_hit d x idx upd _ (ix1 r) ?_ ?_
    · rw [hres]; congr 2; exact Fin.ext hc.symm
    · intro j' hj'
      rw [hres] at hj'
      have h0 := congrArg Fin.val (congrFun (Option.some.inj hj') 0)
      rw [eq_ix1 j']; congr 1
      exact Fin.ext h0
  · rw [if_neg hc]
    refine scatter_set_of_no_hit d x idx upd _ fun j hj => hc ?_
    rw [hres] at hj
    exact (congrArg Fin.val (congrFun (Option.some.inj hj) 1)).symm

end Column

/-! ## A row-block write: `x.at[:, arange(K)].set(v)`

The operand is `[B, N]`, the updates `[B, K]`, the scatter indices the `[K, 1]` array whose entry `(k, 0)` is the
column `k` written by update column `k`: update axis `0` is the window axis and goes to operand axis `0`, update axis `1`
is the scatter axis and reads the scatter indices' axis `0`, operand axis `1` is inserted and takes its start from the
index vector (`update_window_dims = [0]`, `inserted_window_dims = [1]`, `scatter_dims_to_operand_dims = [1]`,
`index_vector_dim = 1`). Update position `(r, k)` lands on `(r, k)`. -/

section RowBlock
variable {α : Type} {B N K : Nat}

/-- A rank-2 index's first coordinate is below the first extent, written as `m` itself so that `omega` can use it. -/
theorem idx2_lt0 {m n : Nat} (j : (⟨2, ![m, n]⟩ : Shape).Idx) : (j 0).val < m := (j 0).isLt

/-- A rank-2 index's second coordinate is below the second extent, written as `n` itself. -/
theorem idx2_lt1 {m n : Nat} (j : (⟨2, ![m, n]⟩ : Shape).Idx) : (j 1).val < n := (j 1).isLt

/-- The result index of update position `j` of a row-block write whose scatter indices hold, at `(k, 0)`, the number
    `k` as a word (the block fits in the operand, and its columns are small enough to be read back signed from
    their words): row `j 0`, column `j 1`. The dimension numbers are given by their fields, so that the statement
    applies to any record with these fields, whatever the proof of its conditions. -/
theorem rowblock_resultIdx (d : ScatterDims ⟨2, ![B, N]⟩ ⟨2, ![K, 1]⟩ ⟨2, ![B, K]⟩)
    (huw : d.updateWindowDims = [0]) (hiw : d.insertedWindowDims = [1]) (hsd : d.scatterDimsToOperandDims = [1])
    (hiv : d.indexVectorDim = 1) (idx : IVec ⟨2, ![K, 1]⟩ 32) (hidx : ∀ q, idx q = BitVec.ofNat 32 (q 0).val)
    (hKN : K ≤ N) (h31 : K ≤ 2 ^ 31) (j : (⟨2, ![B, K]⟩ : Shape).Idx) :
    d.resultIdx? j idx
      = some (ix2 ⟨(j 0).val, idx2_lt0 j⟩ ⟨(j 1).val, Nat.lt_of_lt_of_le (idx2_lt1 j) hKN⟩) := by
  obtain ⟨uw, iw, sd, iv, wf⟩ := d
  dsimp only at huw hiw hsd hiv
  subst huw hiw hsd hiv
  have hj0 : (j 0).val < B := (j 0).isLt
  have hj1 : (j 1).val < K := (j 1).isLt
  have hs0 : ScatterDims.start ⟨[0], [1], [1], 1, wf⟩ j idx 0 = 0 := rfl
  have hq : ∀ c, ((ScatterDims.siIdx ⟨[0], [1], [1], 1, wf⟩ j c) 0).val = (j 1).val := fun _ => rfl
  have hs1 : ScatterDims.start ⟨[0], [1], [1], 1, wf⟩ j idx 1 = ((j 1).val : Int) := by
    unfold ScatterDims.start
    rw [dif_pos (List.mem_singleton.mpr rfl), hidx, toInt_ofNat_of_lt _ (by rw [hq]; omega), hq]
  have hw0 : ScatterDims.window ⟨[0], [1], [1], 1, wf⟩ j 0 = (j 0).val := rfl
  have hw1 : ScatterDims.window ⟨[0], [1], [1], 1, wf⟩ j 1 = 0 := rfl
  have hall : ∀ a, 0 ≤ ScatterDims.start ⟨[0], [1], [1], 1, wf⟩ j idx a + ScatterDims.window ⟨[0], [1], [1], 1, wf⟩ j a
      ∧ ScatterDims.start ⟨[0], [1], [1], 1, wf⟩ j idx a + ScatterDims.window ⟨[0], [1], [1], 1, wf⟩ j a
        < (⟨2, ![B, N]⟩ : Shape).size a := by
    intro a
    match a with
    | ⟨0, _⟩ =>
      show 0 ≤ ScatterDims.start ⟨[0], [1], [1], 1, wf⟩ j idx 0 + ScatterDims.window ⟨[0], [1], [1], 1, wf⟩ j 0
        ∧ ScatterDims.start ⟨[0], [1], [1], 1, wf⟩ j idx 0 + ScatterDims.window ⟨[0], [1], [1], 1, wf⟩ j 0 < (B : Int)
      rw [hs0, hw0]; omega
    | ⟨1, _⟩ =>
      show 0 ≤ ScatterDims.start ⟨[0], [1], [1], 1, wf⟩ j idx 1 + ScatterDims.window ⟨[0], [1], [1], 1, wf⟩ j 1
        ∧ ScatterDims.start ⟨[0], [1], [1], 1, wf⟩ j idx 1 + ScatterDims.window ⟨[0], [1], [1], 1, wf⟩ j 1 < (N : Int)
      rw [hs1, hw1]; omega
  unfold ScatterDims.resultIdx?
  rw [dif_pos hall]
  congr 1
  funext a
  match a with
  | ⟨0, _⟩ =>
    refine Fin.ext ?_
    show (ScatterDims.start ⟨[0], [1], [1], 1, wf⟩ j idx 0 + ScatterDims.window ⟨[0], [1], [1], 1, wf⟩ j 0).toNat = (j 0).val
    rw [hs0, hw0]; omega
  | ⟨1, _⟩ =>
    refine Fin.ext ?_
    show (ScatterDims.start ⟨[0], [1], [1], 1, wf⟩ j idx 1 + ScatterDims.window ⟨[0], [1], [1], 1, wf⟩ j 1).toNat = (j 1).val
    rw [hs1, hw1]; omega

/-- THE ROW-BLOCK WRITE AT AN ELEMENT OF THE BLOCK: row `r`, column `i` (below `K`) of the result is the update's
    element `(r, i)`; the update position `(r, i)` is the only one that lands there. -/
theorem scatter_set_rowblock (d : ScatterDims ⟨2, ![B, N]⟩ ⟨2, ![K, 1]⟩ ⟨2, ![B, K]⟩)
    (huw : d.updateWindowDims = [0]) (hiw : d.insertedWindowDims = [1]) (hsd : d.scatterDimsToOperandDims = [1])
    (hiv : d.indexVectorDim = 1) (x : (⟨2, ![B, N]⟩ : Shape).Idx → α) (idx : IVec ⟨2, ![K, 1]⟩ 32)
    (hidx : ∀ q, idx q = BitVec.ofNat 32 (q 0).val) (hKN : K ≤ N) (h31 : K ≤ 2 ^ 31)
    (upd : (⟨2, ![B, K]⟩ : Shape).Idx → α) (r : Fin B) (i : Fin K) :
    Host.scatter d (fun _ b => b) x idx upd (ix2 r ⟨i.val, Nat.lt_of_lt_of_le i.isLt hKN⟩) = upd (ix2 r i) := by
  have hres := rowblock_resultIdx d huw hiw hsd hiv idx hidx hKN h31
  refine scatter_set_of_unique_hit d x idx upd _ (ix2 r i) ?_ ?_
  · rw [hres]; rfl
  · intro j' hj'
    rw [hres] at hj'
    have h0 := congrArg Fin.val (congrFun (Option.some.inj hj') 0)
    have h1 := congrArg Fin.val (congrFun (Option.some.inj hj') 1)
    rw [eq_ix2 j']; congr 1
    · exact Fin.ext h0
    · exact Fin.ext h1

/-- The row-block write at an element to the right of the block (column `c'` at or beyond `K`): the operand's element. -/
theorem scatter_set_rowblock_right (d : ScatterDims ⟨2, ![B, N]⟩ ⟨2, ![K, 1]⟩ ⟨2, ![B, K]⟩)
    (huw : d.updateWindowDims = [0]) (hiw : d.insertedWindowDims = [1]) (hsd : d.scatterDimsToOperandDims = [1])
    (hiv : d.indexVectorDim = 1) (x : (⟨2, ![B, N]⟩ : Shape).Idx → α) (idx : IVec ⟨2, ![K, 1]⟩ 32)
    (hidx : ∀ q, idx q = BitVec.ofNat 32 (q 0).val) (hKN : K ≤ N) (h31 : K ≤ 2 ^ 31)
    (upd : (⟨2, ![B, K]⟩ : Shape).Idx → α) (r : Fin B) (c' : Fin N) (hc : K ≤ c'.val) :
    Host.scatter d (fun _ b => b) x idx upd (ix2 r c') = x (ix2 r c') := by
  have hres := rowblock_resultIdx d huw hiw hsd hiv idx hidx hKN h31
  refine scatter_set_of_no_hit d x idx upd _ fun j hj => ?_
  rw [hres] at hj
  have h1 := congrArg Fin.val (congrFun (Option.some.inj hj) 1)
  have hj1 : (j 1).val < K := (j 1).isLt
  have h1' : (j 1).val = c'.val := h1
  omega

end RowBlock

end Idealize.ShloMosaic.LibScatterSet
-- ==== Proof.HostValue.lean ====
/-
  WHAT THE KERNEL FINDS IN ITS OPERANDS WHEN IT STARTS.

  Before the kernel runs, the program builds the resident table: the features (their change of float format is the
  identity on the extended reals) followed by 128 more columns, of which the first holds ones and the others zeros.
  It also changes the format of the weights (the identity again) and views the bias as a one-row matrix. Read at an
  index: table[k, d] = x[k, d] for d < 512, table[k, 512] = 1; the weights and the bias are the arguments'.
-/
import proofs.«136506_g85529978732852_cont_9to1c4b_72_21_alg».proof.Proof.Gen.KernelIdeal.Value
import proofs.«136506_g85529978732852_cont_9to1c4b_72_21_alg».proof.Proof.LibScatterSet
import proofs.«136506_g85529978732852_cont_9to1c4b_72_21_alg».proof.Proof.BodyOps
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.HostValue

open Cert.KernelIdeal Cert.KernelIdeal.Gen Cert.KernelIdeal.BodyOps Idealize.ShloMosaic.ValueIdx

variable (m : (ℓ : Loc nD τ sig) → Buf (Elt Ideal) ℓ)

/-- The 128 appended columns: zeros with column 0 overwritten by ones. -/
abbrev padding : S10000x128.Idx → EReal :=
  Host.scatter scatter_S10000x128_S1_S10000_0_1_1_0 (fun _ b => b)
    (broadcastInDim S10000x128 ![] Facts₀.bcast_S_S10000x128 (constant (F := Ideal) S_ .bf16 0x0000#16))
    (broadcastInDim S1 ![] Facts₀.bcast_S_S1 (constantI S_ 32 0#32))
    (broadcastInDim S10000 ![] Facts₀.bcast_S_S10000 (constant (F := Ideal) S_ .bf16 0x3F80#16))

/-- The resident table as the program builds it. -/
theorem table_eq (c : Dev nD) : (V m c main_v5 : S10000x640.Idx → EReal)
    = concatenate S10000x640 1 [⟨S10000x512, truncf (F := Ideal) .bf16 (m ((c : Thread nD τ).loc main_arg0)) Facts₀.bitsLt_bf16_f32⟩,
        ⟨S10000x128, padding⟩] Facts₀.concatenates_S10000x512_S10000x128_S10000x640_d1 := by
  dsimp only [Gen.V, Gen.hostOps0]
  after_results

/-- A feature column of the table holds the features. -/
theorem table_feat (c : Dev nD) (k : Fin 10000) (d : Fin 512) :
    V m c main_v5 (ix2 k (featCol d)) = m ((c : Thread nD τ).loc main_arg0) (ix2 k d) := by
  refine (congrFun (table_eq m c) (ix2 k (featCol d))).trans ?_
  exact concatenate_pair_apply_left (t := S10000x640) (s₁ := S10000x512) (s₂ := S10000x128) (1 : Fin 2)
    (truncf (F := Ideal) .bf16 (m ((c : Thread nD τ).loc main_arg0)) Facts₀.bitsLt_bf16_f32) padding
    Facts₀.concatenates_S10000x512_S10000x128_S10000x640_d1 (ix2 k (featCol d)) rfl (ix2 k d)
    (fun b => by match b with | ⟨0, _⟩ => rfl | ⟨1, _⟩ => rfl)

/-- The bf16 word of 1.0 denotes 1. -/
theorem one_bf16 : Ideal.ofBits .bf16 0x3F80#16 = 1 := IdealRules.sign_bit.ideal_onePat .bf16

/-- Column 512 of the table holds ones. -/
theorem table_ones (c : Dev nD) (k : Fin 10000) : V m c main_v5 (ix2 k onesCol) = (1 : EReal) := by
  refine (congrFun (table_eq m c) (ix2 k onesCol)).trans ?_
  refine (concatenate_pair_apply_right (t := S10000x640) (s₁ := S10000x512) (s₂ := S10000x128) (1 : Fin 2)
    (truncf (F := Ideal) .bf16 (m ((c : Thread nD τ).loc main_arg0)) Facts₀.bitsLt_bf16_f32) padding
    Facts₀.concatenates_S10000x512_S10000x128_S10000x640_d1 (ix2 k onesCol) rfl rfl (ix2 k (0 : Fin 128))
    (fun b hb => by match b with | ⟨0, _⟩ => rfl | ⟨1, _⟩ => exact absurd rfl hb) (by show 0 + 512 = 512; rfl)).trans ?_
  refine (LibScatterSet.scatter_set_column (B := 10000) (N := 128) scatter_S10000x128_S1_S10000_0_1_1_0 rfl rfl rfl rfl
    _ _ 0 (fun _ => rfl) (by omega) (by omega) _ k (0 : Fin 128)).trans ?_
  rw [if_pos (show ((0 : Fin 128) : ℕ) = 0 from rfl)]
  exact one_bf16

/-- The weights the kernel reads are the argument's. -/
theorem weight_eq (c : Dev nD) : (V m c main_v6 : S1024x512.Idx → EReal) = m ((c : Thread nD τ).loc main_arg2) := by
  dsimp only [Gen.V, Gen.hostOps0]
  after_results
  rfl

/-- The bias row the kernel reads is the bias viewed as a one-row matrix. -/
theorem bias_eq (c : Dev nD) : (V m c main_v7 : S1x512.Idx → EReal)
    = shapeCast S1x512 (m ((c : Thread nD τ).loc main_arg3)) Facts₀.shapeCasts_S512_S1x512 := by
  dsimp only [Gen.V, Gen.hostOps0]
  after_results
  rfl

/-- Entry `j` of the bias row is the bias's entry `j`. -/
theorem bias_apply (c : Dev nD) (j : Fin 512) :
    V m c main_v7 (ix2 (0 : Fin 1) j) = m ((c : Thread nD τ).loc main_arg3) (ix1 j) := by
  refine (congrFun (bias_eq m c) (ix2 (0 : Fin 1) j)).trans ?_
  refine (shapeCast_addUnit_apply ![512] _ _ (ix2 (0 : Fin 1) j)).trans ?_
  exact congrArg _ (funext fun a => by match a with | ⟨0, _⟩ => rfl)

end Cert.KernelIdeal.HostValue

end
-- ==== Proof.Spec.lean ====
/-
  THE LAYER AS ONE FUNCTION OF ITS ARGUMENTS.

  A GraphSAGE layer with mean aggregation. With `a` the neighbour mask as extended reals (row r, column k: is k a
  neighbour of r), `x` the node features, `w` the weight matrix whose upper half multiplies the aggregated features and
  whose lower half multiplies the node's own features, and `b` the bias:

      out[r, j] = ∑_d mean[r, d] · w[d, j]  +  ∑_d x[r, d] · w[512 + d, j]  +  b[j],
      mean[r, d] = (∑_k a[r, k] · x[k, d]) / (∑_k a[r, k]).

  Both programs compute this function. One of them writes the two products as a single product of the concatenated
  row [mean | x] with the whole weight matrix: a sum over 1024 columns is the sum over its first 512 plus the sum over
  its last 512 (`sum_halves`), which holds in any commutative monoid and so on the extended reals, infinities included.
-/
import Idealize.ShloMosaic.PureOps.Ideal
import Idealize.ShloMosaic.Lib.ValueIdx

noncomputable section

open scoped BigOperators

namespace Cert.SageLayer

open Idealize.ShloMosaic Idealize.ShloMosaic.ValueIdx

abbrev SAdj : Shape := ⟨2, ![10000, 10000]⟩
abbrev SFeat : Shape := ⟨2, ![10000, 512]⟩
abbrev SWeight : Shape := ⟨2, ![1024, 512]⟩
abbrev SBias : Shape := ⟨1, ![512]⟩

/-- Row `d` of the weight matrix's upper half. -/
abbrev upper (d : Fin 512) : Fin 1024 := ⟨d.val, by omega⟩
/-- Row `d` of the weight matrix's lower half: row `512 + d` of the matrix. -/
abbrev lower (d : Fin 512) : Fin 1024 := ⟨512 + d.val, by omega⟩

/-- The sum of the neighbours' feature `d`, for node `r`. -/
def nbrSum (a : SAdj.Idx → EReal) (x : SFeat.Idx → EReal) (r : Fin 10000) (d : Fin 512) : EReal :=
  ∑ k : Fin 10000, a (ix2 r k) * x (ix2 k d)

/-- The number of neighbours of node `r`. -/
def degree (a : SAdj.Idx → EReal) (r : Fin 10000) : EReal := ∑ k : Fin 10000, a (ix2 r k)

/-- The mean of the neighbours' feature `d`, for node `r`. -/
def nbrMean (a : SAdj.Idx → EReal) (x : SFeat.Idx → EReal) (r : Fin 10000) (d : Fin 512) : EReal :=
  Ideal.div (nbrSum a x r d) (degree a r)

/-- The layer's output. -/
def layer (a : SAdj.Idx → EReal) (x : SFeat.Idx → EReal) (w : SWeight.Idx → EReal) (b : SBias.Idx → EReal) :
    SFeat.Idx → EReal := fun i =>
  (∑ d : Fin 512, nbrMean a x (i 0) d * w (ix2 (upper d) (i 1))
    + ∑ d : Fin 512, x (ix2 (i 0) d) * w (ix2 (lower d) (i 1))) + b (ix1 (i 1))

/-- A sum over 1024 indices is the sum over the first 512 plus the sum over the last 512. -/
theorem sum_halves {M : Type*} [AddCommMonoid M] (f : Fin 1024 → M) :
    ∑ k : Fin 1024, f k = ∑ d : Fin 512, f (upper d) + ∑ d : Fin 512, f (lower d) :=
  Fin.sum_univ_add (a := 512) (b := 512) f

end Cert.SageLayer

end
-- ==== Proof.AdjDomain.lean ====
/-
  THE ADJACENCY MATRIX HOLDS ZEROS AND ONES.

  The precondition's last conjunct says of every entry of the adjacency matrix that it is 0 or 1. On such an entry the
  two ways the programs turn it into a weight agree: the entry itself read as a number (0 or 1), and the indicator of
  "the entry equals 1" (again 0 or 1).
-/
import proofs.«136506_g85529978732852_cont_9to1c4b_72_21_alg».proof.Pre_finite_inputs
import Idealize.ShloMosaic.PureOps.Ideal
import Idealize.ShloMosaic.Lib.ValueIdx
import Idealize.ShloMosaic.Lib.ReduceAll

noncomputable section

namespace Cert.AdjDomain

open Idealize.ShloMosaic Idealize.ShloMosaic.ValueIdx Cert.Pre_finite_inputs

instance : Subsingleton S_.Idx := ⟨fun a b => funext fun d => d.elim0⟩

variable [Facts]
open Facts

/-- Under the precondition every entry of the adjacency matrix is the word 0 or the word 1. -/
theorem zero_or_one {F : FTy → Type} [FloatOps F] (x : FVec F S10000x512 .f32) (adj : IVec S10000x10000 32)
    (w : FVec F S1024x512 .f32) (b : FVec F S512 .f32) (h : fn (F := F) x adj w b = fun _ => 1#1)
    (i : S10000x10000.Idx) : adj i = 0#32 ∨ adj i = 1#32 := by
  have e := congrFun h ix0
  unfold fn fn_part1 at e
  dsimp only at e
  have e2 := (IntOp.andi_eq_one.1 e).2
  have e3 := Host.reduce_andi_all _ _ _ _ _ e2 i
  rcases IntOp.ori_eq_one.1 e3 with h0 | h1
  · exact Or.inl (IntOp.cmpi_eq.1 h0)
  · exact Or.inr (IntOp.cmpi_eq.1 h1)

/-- On a word that is 0 or 1, the word read as a signed number is the indicator of "the word is 1" read unsigned. -/
theorem toInt_eq_indicator (v : BitVec 32) (h : v = 0#32 ∨ v = 1#32) :
    ((v.toInt : ℝ) : EReal) = (((IntOp.cmpi .eq v 1#32).toNat : ℝ) : EReal) := by
  rcases h with rfl | rfl
  · have h1 : (0#32 : BitVec 32).toInt = 0 := by decide
    have h2 : (IntOp.cmpi .eq (0#32 : BitVec 32) 1#32).toNat = 0 := by decide
    rw [h1, h2]; simp
  · have h1 : (1#32 : BitVec 32).toInt = 1 := by decide
    have h2 : (IntOp.cmpi .eq (1#32 : BitVec 32) 1#32).toNat = 1 := by decide
    rw [h1, h2]; simp

/-- The adjacency matrix as weights, each entry read as a signed number. -/
def asNumber (adj : IVec S10000x10000 32) : S10000x10000.Idx → EReal := fun i => (((adj i).toInt : ℝ) : EReal)

/-- The adjacency matrix as weights, each entry replaced by the indicator of "the entry is 1". -/
def indicator (adj : IVec S10000x10000 32) : S10000x10000.Idx → EReal :=
  fun i => (((IntOp.cmpi .eq (adj i) 1#32).toNat : ℝ) : EReal)

/-- On a matrix of zeros and ones the two weightings are the same. -/
theorem asNumber_eq_indicator (adj : IVec S10000x10000 32) (h : ∀ i, adj i = 0#32 ∨ adj i = 1#32) :
    asNumber adj = indicator adj :=
  funext fun i => toInt_eq_indicator (adj i) (h i)

end Cert.AdjDomain

end
-- ==== Proof.LayerValue.lean ====
/-
  THE KERNEL COMPUTES THE LAYER.

  The kernel walks the 10000 rows in 25 strips of 400. At strip `t` it reads rows 400·t … 400·t + 399 of the adjacency
  matrix, the whole resident table (features, a column of ones, zeros), the whole weight matrix and the bias row, and
  writes rows 400·t … 400·t + 399 of the result. Row `p` of what it writes is the layer's row 400·t + p, with the
  adjacency entries read as numbers: the product of the strip with the table's column of ones is the degree, the
  product with the feature columns the neighbours' sums, and the strip's own rows of the table are the nodes' own
  features. The 25 strips cover the result array, so after the run the array is the layer of the arguments.
-/
import proofs.«136506_g85529978732852_cont_9to1c4b_72_21_alg».proof.Proof.Gen.KernelIdeal.Value
import proofs.«136506_g85529978732852_cont_9to1c4b_72_21_alg».proof.Proof.BodyValue
import proofs.«136506_g85529978732852_cont_9to1c4b_72_21_alg».proof.Proof.Payload
import proofs.«136506_g85529978732852_cont_9to1c4b_72_21_alg».proof.Proof.HostValue
import proofs.«136506_g85529978732852_cont_9to1c4b_72_21_alg».proof.Proof.Spec
import proofs.«136506_g85529978732852_cont_9to1c4b_72_21_alg».proof.Proof.AdjDomain
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.LayerValue

open Cert.KernelIdeal Cert.KernelIdeal.Gen Cert.KernelIdeal.BodyOps Cert.KernelIdeal.BodyValue Cert.KernelIdeal.HostValue
open Idealize.ShloMosaic.ValueIdx Cert.SageLayer Cert.AdjDomain

/-! ## The body's three partial reads -/

/-- Row `d` of the weights' upper half is row `d` of the weights. -/
theorem topHalf_apply (W : FVec Ideal S1024x512 .bf16) (d j : Fin 512) : topHalf (F := Ideal) W (ix2 d j) = W (ix2 (upper d) j) :=
  congrArg W (funext fun a => Fin.ext (by
    match a with
    | ⟨0, _⟩ => show 0 + 1 * d.val = d.val; omega
    | ⟨1, _⟩ => show 0 + 1 * j.val = j.val; omega))

/-- Row `d` of the weights' lower half is row `512 + d` of the weights. -/
theorem bottomHalf_apply (W : FVec Ideal S1024x512 .bf16) (d j : Fin 512) : bottomHalf (F := Ideal) W (ix2 d j) = W (ix2 (lower d) j) :=
  congrArg W (funext fun a => Fin.ext (by
    match a with
    | ⟨0, _⟩ => show 512 + 1 * d.val = 512 + d.val; omega
    | ⟨1, _⟩ => show 0 + 1 * j.val = j.val; omega))

/-- Row `p` of the strip's own rows is row `r0 + p` of the table, when the strip starts at row `r0`. -/
theorem ownRows_apply (i : grid0.Coords) (T : FVec Ideal S10000x640 .bf16) (r0 : Nat) (hr0 : r0 + 400 ≤ 10000)
    (hoff : k0_off1 i = ![r0, 0]) (p : Fin 400) (d : Fin 512) :
    ownRows (F := Ideal) i T (ix2 p d) = T (ix2 ⟨r0 + p.val, by omega⟩ (featCol d)) :=
  congrArg T (funext fun a => Fin.ext (by
    match a with
    | ⟨0, _⟩ => show k0_off1 i 0 + 1 * p.val = r0 + p.val; rw [hoff]; show r0 + 1 * p.val = _; omega
    | ⟨1, _⟩ => show k0_off1 i 1 + 1 * d.val = d.val; rw [hoff]; show 0 + 1 * d.val = _; omega))

/-! ## One strip, over abstract operands -/

/-- Row `p` of strip `r0 / 400`: when the strip `A` holds rows `r0 + p` of the adjacency matrix, the table `T` the
    features and a column of ones, `W` the weights and `b` the bias, and the strip's own rows start at row `r0` of the
    table, the stored value at (p, j) is the layer at (r0 + p, j). -/
theorem strip_value (A : Vec Ideal S400x10000 .i32) (T : FVec Ideal S10000x640 .bf16) (W : FVec Ideal S1024x512 .bf16)
    (b : FVec Ideal S1x512 .f32) (adj : IVec S10000x10000 32) (x : SFeat.Idx → EReal) (w : SWeight.Idx → EReal)
    (bias : SBias.Idx → EReal) (i : grid0.Coords) (r0 : Nat) (hr0 : r0 + 400 ≤ 10000)
    (hA : ∀ (p : Fin 400) (k : Fin 10000), A (ix2 p k) = adj (ix2 ⟨r0 + p.val, by omega⟩ k))
    (hTf : ∀ (k : Fin 10000) (d : Fin 512), T (ix2 k (featCol d)) = x (ix2 k d))
    (hT1 : ∀ k : Fin 10000, T (ix2 k onesCol) = 1)
    (hW : ∀ (a : Fin 1024) (j : Fin 512), W (ix2 a j) = w (ix2 a j))
    (hb : ∀ j : Fin 512, b (ix2 (0 : Fin 1) j) = bias (ix1 j))
    (hoff : k0_off1 i = ![r0, 0]) (p : Fin 400) (j : Fin 512) :
    k0_pay1 (F := Ideal) A T (ownRows i T) (topHalf W) (bottomHalf W) b (ix2 p j)
      = layer (asNumber adj) x w bias (ix2 ⟨r0 + p.val, by omega⟩ j) := by
  rw [payload_apply]
  unfold layer nbrMean nbrSum degree asNumber
  refine congrArg₂ (· + ·) (congrArg₂ (· + ·) (Finset.sum_congr rfl fun d _ => ?_) (Finset.sum_congr rfl fun d _ => ?_)) (hb j)
  · refine congrArg₂ (· * ·) (congrArg₂ Ideal.div (Finset.sum_congr rfl fun k _ => ?_) (Finset.sum_congr rfl fun k _ => ?_)) ?_
    · rw [hA, hTf]
    · rw [hA, hT1, mul_one]
    · exact (topHalf_apply W d j).trans (hW _ _)
  · exact congrArg₂ (· * ·) ((ownRows_apply i T r0 hr0 hoff p d).trans (hTf _ _)) ((bottomHalf_apply W d j).trans (hW _ _))

end Cert.KernelIdeal.LayerValue

end
-- ==== Proof.LayerRun.lean ====
/-
  THE KERNEL'S RUN ENDS WITH THE LAYER IN THE RESULT ARRAY.

  Strip `t` of the run reads, through the windows' blocks, rows 400·t … 400·t + 399 of the adjacency matrix and the whole
  of the table, the weights and the bias row as the program built them; so what it writes back is rows 400·t … of the
  layer of the arguments (one strip's value, instantiated). Row r of the result lies in strip r / 400, so the 25
  strips cover the array.
-/
import proofs.«136506_g85529978732852_cont_9to1c4b_72_21_alg».proof.Proof.LayerValue

set_option maxRecDepth 16384

noncomputable section

open Idealize.ShloMosaic Idealize.ShloMosaic.TcCoe Idealize.SL.Sem
open Idealize.ShloMosaic.Pipeline (Dat)

namespace Cert.KernelIdeal.LayerRun

open Cert.KernelIdeal Cert.KernelIdeal.Gen Cert.KernelIdeal.BodyOps Cert.KernelIdeal.BodyValue Cert.KernelIdeal.HostValue
open Cert.KernelIdeal.LayerValue Idealize.ShloMosaic.ValueIdx Cert.SageLayer Cert.AdjDomain

variable (m : (ℓ : Loc nD τ sig) → Buf (Elt Ideal) ℓ) (ρ : Dev nD → PrngReg)

/-- The layer of the argument arrays, the adjacency entries read as numbers. -/
def result (c : Dev nD) : Buf (Elt Ideal) ((c : Thread nD τ).loc main_v8) :=
  layer (asNumber (m ((c : Thread nD τ).loc main_arg1))) (m ((c : Thread nD τ).loc main_arg0))
    (m ((c : Thread nD τ).loc main_arg2)) (m ((c : Thread nD τ).loc main_arg3))

/-- Where the windows' blocks sit at strip `t`: the adjacency strip and the output strip at block row `t`, the table,
    the weights and the bias at block (0, 0); and the grid coordinate of point `t` is `t`. Decided over the 25 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

theorem strip_lt (t : Fin cfg0.N) : 400 * t.val + 400 ≤ 10000 := by
  have hN : cfg0.N = 25 := N_0
  have := t.isLt
  omega

/-! ## The four input blocks at strip `t` -/

/-- The adjacency strip: row `p` is row `400·t + p` of the adjacency matrix. -/
theorem adjBlock_apply (c : Dev nD) (t : Fin cfg0.N) (p : Fin 400) (k : Fin 10000) :
    iblk m c 0 t (ix2 p k)
      = m ((c : Thread nD τ).loc main_arg1) (ix2 ⟨400 * t.val + p.val, by have := strip_lt t; omega⟩ k) := by
  obtain ⟨e0, e1, -⟩ := idx_facts t
  show V m c main_arg1 (((cfg0.win 0).blk t).view.emb (ix2 p k)) = _
  rw [V_main_arg1]
  refine congrArg (m ((c : Thread nD τ).loc main_arg1)) (funext fun a => Fin.ext ?_)
  match a with
  | ⟨0, _⟩ => show win0_0.index t (0 : Fin 2) * 400 + 1 * p.val = 400 * t.val + p.val; rw [e0]; omega
  | ⟨1, _⟩ => show win0_0.index t (1 : Fin 2) * 10000 + 1 * k.val = k.val; rw [e1]; omega

/-- The table's block is the whole table. -/
theorem tableBlock_apply (c : Dev nD) (t : Fin cfg0.N) (k : Fin 10000) (q : Fin 640) :
    iblk m c 1 t (ix2 k q) = V m c main_v5 (ix2 k q) := by
  obtain ⟨-, -, e0, e1, -⟩ := idx_facts t
  show V m c main_v5 (((cfg0.win 1).blk t).view.emb (ix2 k q)) = _
  refine congrArg (V m c main_v5) (funext fun a => Fin.ext ?_)
  match a with
  | ⟨0, _⟩ => show win0_1.index t (0 : Fin 2) * 10000 + 1 * k.val = k.val; rw [e0]; omega
  | ⟨1, _⟩ => show win0_1.index t (1 : Fin 2) * 640 + 1 * q.val = q.val; rw [e1]; omega

/-- The weights' block is the whole weight matrix. -/
theorem weightBlock_apply (c : Dev nD) (t : Fin cfg0.N) (a : Fin 1024) (j : Fin 512) :
    iblk m c 2 t (ix2 a j) = V m c main_v6 (ix2 a j) := by
  obtain ⟨-, -, -, -, e0, e1, -⟩ := idx_facts t
  show V m c main_v6 (((cfg0.win 2).blk t).view.emb (ix2 a j)) = _
  refine congrArg (V m c main_v6) (funext fun b => Fin.ext ?_)
  match b with
  | ⟨0, _⟩ => show win0_2.index t (0 : Fin 2) * 1024 + 1 * a.val = a.val; rw [e0]; omega
  | ⟨1, _⟩ => show win0_2.index t (1 : Fin 2) * 512 + 1 * j.val = j.val; rw [e1]; omega

/-- The bias block is the whole bias row. -/
theorem biasBlock_apply (c : Dev nD) (t : Fin cfg0.N) (u : Fin 1) (j : Fin 512) :
    iblk m c 3 t (ix2 u j) = V m c main_v7 (ix2 u j) := by
  obtain ⟨-, -, -, -, -, -, e0, e1, -⟩ := idx_facts t
  show V m c main_v7 (((cfg0.win 3).blk t).view.emb (ix2 u j)) = _
  refine congrArg (V m c main_v7) (funext fun b => Fin.ext ?_)
  match b with
  | ⟨0, _⟩ => show win0_3.index t (0 : Fin 2) * 1 + 1 * u.val = u.val; rw [e0]; omega
  | ⟨1, _⟩ => show win0_3.index t (1 : Fin 2) * 512 + 1 * j.val = j.val; rw [e1]; omega

/-! ## What strip `t` writes back -/

/-- The block the body leaves at strip `t`, entry by entry: the layer at row `400·t + p`. -/
theorem strip_eq (c : Dev nD) (t : Fin cfg0.N) :
    k0_pay1 (F := Ideal) (iblk m c 0 t) (iblk m c 1 t) (ownRows (grid0.coords t) (iblk m c 1 t)) (topHalf (iblk m c 2 t))
        (bottomHalf (iblk m c 2 t)) (iblk m c 3 t)
      = fun y : S400x512.Idx => result m c (ix2 ⟨400 * t.val + (y 0).val, by
          have := strip_lt t; have := idx2_lt0 y; omega⟩ ⟨(y 1).val, idx2_lt1 y⟩) := by
  obtain ⟨-, -, -, -, -, -, -, -, -, -, eg⟩ := idx_facts t
  have hoff : k0_off1 (grid0.coords t) = ![400 * t.val, 0] := by rw [k0_off1_eq, eg]
  funext y
  obtain ⟨p, j, rfl⟩ : ∃ (p : Fin 400) (j : Fin 512), y = ix2 p j := ⟨y 0, y 1, eq_ix2 y⟩
  exact strip_value (iblk m c 0 t) (iblk m c 1 t) (iblk m c 2 t) (iblk m c 3 t) (m ((c : Thread nD τ).loc main_arg1))
    (m ((c : Thread nD τ).loc main_arg0)) (m ((c : Thread nD τ).loc main_arg2)) (m ((c : Thread nD τ).loc main_arg3))
    (grid0.coords t) (400 * t.val) (strip_lt t)
    (fun p k => adjBlock_apply m c t p k)
    (fun k d => (tableBlock_apply m c t k (featCol d)).trans (table_feat m c k d))
    (fun k => (tableBlock_apply m c t k onesCol).trans (table_ones m c k))
    (fun a j => (weightBlock_apply m c t a j).trans (congrFun (weight_eq m c) (ix2 a j)))
    (fun j => (biasBlock_apply m c t 0 j).trans (bias_apply m c j))
    hoff p j

/-- WHAT STRIP `t` WRITES BACK is block `t` of the layer of the arguments. -/
theorem flushed_eq (c : Dev nD) (t : Fin cfg0.N) :
    (dats m 0 c).flushed 4 t = ((cfg0.win 4).blk t).view.read (Elt Ideal) (result m c) := by
  obtain ⟨-, -, -, -, -, -, -, -, e0, e1, -⟩ := idx_facts t
  refine (Value.flushed4_A m c t).trans ?_
  refine (congrArg ((cfg0.win 4).cut (grid0.coords t)) (block_eq c (grid0.coords t) (ms0_0 t) (hs0_0 t) (ms0_1 t) (hs0_1 t)
    (ms0_2 t) (hs0_2 t) (ms0_3 t) (hs0_3 t) (ms0_4 t) (hs0_4 t) (iblk m c 0 t) (iblk m c 1 t) (iblk m c 2 t) (iblk m c 3 t))).trans ?_
  refine (congrArg ((cfg0.win 4).cut (grid0.coords t)) (strip_eq m c t)).trans ?_
  funext y
  show result m c _ = result m c (((cfg0.win 4).blk t).view.emb y)
  refine congrArg (result m c) (funext fun a => Fin.ext ?_)
  match a with
  | ⟨0, _⟩ => show 400 * t.val + (y 0).val = win0_4.index t (0 : Fin 2) * 400 + 1 * (y 0).val; rw [e0]; omega
  | ⟨1, _⟩ => show (y 1).val = win0_4.index t (1 : Fin 2) * 512 + 1 * (y 1).val; rw [e1]; omega

/-! ## The strips cover the result array -/

/-- An index of the result array is in strip `t`'s block iff each coordinate is in the block's range on its axis. -/
theorem mem_blk (t : Fin cfg0.N) (i : S10000x512.Idx) :
    i ∈ ((cfg0.win 4).blk t).view.set ↔ ∀ a : Fin 2, win0_4.index t a * S400x512.size a ≤ (i a).val
      ∧ (i a).val < win0_4.index t a * S400x512.size a + S400x512.size a := by
  show i ∈ ((View.whole main_v8).slice (win0_4.rect t)).set ↔ _
  rw [View.set_slice_whole, Rect.mem_set_unit]
  exact Iff.rfl

/-- Row `r` of the result is written by strip `r / 400`. -/
theorem cover (i : S10000x512.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 512 := (i 1).isLt
  have ht : (i 0).val / 400 < cfg0.N := by omega
  obtain ⟨-, -, -, -, -, -, -, -, e0, e1, -⟩ := idx_facts ⟨(i 0).val / 400, ht⟩
  refine ⟨⟨(i 0).val / 400, ht⟩, flush0_4 _, ?_⟩
  rw [mem_blk]
  intro a
  match a with
  | ⟨0, _⟩ =>
    show win0_4.index ⟨(i 0).val / 400, ht⟩ (0 : Fin 2) * 400 ≤ (i 0).val
      ∧ (i 0).val < win0_4.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win0_4.index ⟨(i 0).val / 400, ht⟩ (1 : Fin 2) * 512 ≤ (i 1).val
      ∧ (i 1).val < win0_4.index ⟨(i 0).val / 400, ht⟩ (1 : Fin 2) * 512 + 512
    rw [e1]
    omega

/-- So the result array ends holding the layer of the arguments. -/
theorem final (c : Dev nD) : (dats m 0 c).arrAt 4 cfg0.N = result m c :=
  (dats m 0 c).arrAt_eq_of_cover 4 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LayerRun

end
-- ==== Proof.RefValue.lean ====
/-
  THE REFERENCE COMPUTES THE LAYER.

  Read one operation at a time at an output index (r, j): the mask is the indicator of "the entry is 1"; the degree
  is its row sum (from the initial value 0); the aggregated features are the product of the mask with the features
  divided by the degree; the concatenated row [mean | x] times the weight matrix is a sum over 1024 columns, split
  into its two halves; the bias is added last.
-/
import proofs.«136506_g85529978732852_cont_9to1c4b_72_21_alg».proof.Proof.Gen.ReferenceIdeal.Read
import proofs.«136506_g85529978732852_cont_9to1c4b_72_21_alg».proof.Proof.Spec
import proofs.«136506_g85529978732852_cont_9to1c4b_72_21_alg».proof.Proof.AdjDomain
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.SageLayer Cert.AdjDomain

variable (x : (⟨S10000x512, .f32⟩ : BufTy).Contents (Elt Ideal)) (adj : (⟨S10000x10000, .i32⟩ : BufTy).Contents (Elt Ideal))
  (w : (⟨S1024x512, .f32⟩ : BufTy).Contents (Elt Ideal)) (b : (⟨S512, .f32⟩ : BufTy).Contents (Elt Ideal))

/-- The mask at an entry is the indicator of "the entry is 1". -/
theorem mask_apply (i : S10000x10000.Idx) : val_main_v2 (F := Ideal) adj i = indicator adj i := by
  rw [val_main_v2_apply, val_main_v1_apply, val_main_v0_apply, val_main_c_apply]
  rfl

/-- The degree of node `r`: the row sum of the mask. -/
theorem degree_apply (r : Fin 10000) : val_main_v3 (F := Ideal) adj (ix1 r) = degree (indicator adj) r := by
  rw [val_main_v3_apply, val_main_cst_apply]
  show Ideal.ofBits .f32 0x00000000#32 + _ = _
  rw [Ideal.ofBits_zero_f32, zero_add]
  unfold degree
  refine Finset.sum_congr rfl fun k _ => ?_
  rw [mask_apply]
  exact congrArg (indicator adj) (funext fun a => by match a with | ⟨0, _⟩ => rfl | ⟨1, _⟩ => rfl)

/-- The neighbours' sum of feature `d` at node `r`: the mask times the features. -/
theorem nbrSum_apply (r : Fin 10000) (d : Fin 512) :
    val_main_v4 (F := Ideal) x adj (ix2 r d) = nbrSum (indicator adj) x r d := by
  rw [val_main_v4_apply]
  unfold nbrSum
  refine Finset.sum_congr rfl fun k _ => ?_
  rw [mask_apply]
  have el : lidx_main_v4 (ix2 r d) k = ix2 r k := funext fun a => by match a with | ⟨0, _⟩ => rfl | ⟨1, _⟩ => rfl
  have er : ridx_main_v4 (ix2 r d) k = ix2 k d := funext fun a => by match a with | ⟨0, _⟩ => rfl | ⟨1, _⟩ => rfl
  rw [el, er]

/-- The aggregated feature `d` of node `r`: the neighbours' mean. -/
theorem nbrMean_apply (r : Fin 10000) (d : Fin 512) :
    val_main_v7 (F := Ideal) x adj (ix2 r d) = nbrMean (indicator adj) x r d := by
  rw [val_main_v7_apply, nbrSum_apply, val_main_v6_apply, val_main_v5_apply]
  have e : idx_main_v5 (idx_main_v6 (ix2 r d)) = ix1 r := funext fun a => by match a with | ⟨0, _⟩ => rfl
  rw [e, degree_apply]
  rfl

/-- The concatenated row at a column of its first half is the aggregated feature. -/
theorem row_upper (r : Fin 10000) (d : Fin 512) :
    val_main_v8 (F := Ideal) x adj (ix2 r (upper d)) = val_main_v7 (F := Ideal) x adj (ix2 r d) := by
  unfold val_main_v8
  exact concatenate_pair_apply_left (t := S10000x1024) (s₁ := S10000x512) (s₂ := S10000x512) (1 : Fin 2)
    (val_main_v7 (F := Ideal) x adj) x concatenates_S10000x512_S10000x512_S10000x1024_d1 (ix2 r (upper d)) rfl
    (ix2 r d) (fun c => by match c with | ⟨0, _⟩ => rfl | ⟨1, _⟩ => rfl)

/-- The concatenated row at a column of its second half is the node's own feature. -/
theorem row_lower (r : Fin 10000) (d : Fin 512) :
    val_main_v8 (F := Ideal) x adj (ix2 r (lower d)) = x (ix2 r d) := by
  unfold val_main_v8
  exact concatenate_pair_apply_right (t := S10000x1024) (s₁ := S10000x512) (s₂ := S10000x512) (1 : Fin 2)
    (val_main_v7 (F := Ideal) x adj) x concatenates_S10000x512_S10000x512_S10000x1024_d1 (ix2 r (lower d)) rfl rfl
    (ix2 r d) (fun c hc => by match c with | ⟨0, _⟩ => rfl | ⟨1, _⟩ => exact absurd rfl hc)
    (by show d.val + 512 = 512 + d.val; omega)

/-- THE REFERENCE'S RESULT is the layer, with the indicator mask. -/
theorem result_eq : val_main_v12 (F := Ideal) x adj w b = layer (indicator adj) x w b := by
  funext i
  obtain ⟨r, j, rfl⟩ : ∃ (r : Fin 10000) (j : Fin 512), i = ix2 r j := ⟨i 0, i 1, eq_ix2 i⟩
  rw [val_main_v12_apply, val_main_v9_apply, val_main_v11_apply, val_main_v10_apply, sum_halves]
  have eb : idx_main_v10 (idx_main_v11 (ix2 r j)) = ix1 j := funext fun a => by match a with | ⟨0, _⟩ => rfl
  rw [eb]
  show (_ + _) + _ = (_ + _) + _
  refine congrArg₂ (· + ·) (congrArg₂ (· + ·) ?_ ?_) rfl
  · refine Finset.sum_congr rfl fun d _ => ?_
    have el : lidx_main_v9 (ix2 r j) (upper d) = ix2 r (upper d) := funext fun a => by match a with | ⟨0, _⟩ => rfl | ⟨1, _⟩ => rfl
    have er : ridx_main_v9 (ix2 r j) (upper d) = ix2 (upper d) j := funext fun a => by match a with | ⟨0, _⟩ => rfl | ⟨1, _⟩ => rfl
    rw [el, er, row_upper, nbrMean_apply]
  · refine Finset.sum_congr rfl fun d _ => ?_
    have el : lidx_main_v9 (ix2 r j) (lower d) = ix2 r (lower d) := funext fun a => by match a with | ⟨0, _⟩ => rfl | ⟨1, _⟩ => rfl
    have er : ridx_main_v9 (ix2 r j) (lower d) = ix2 (lower d) j := funext fun a => by match a with | ⟨0, _⟩ => rfl | ⟨1, _⟩ => rfl
    rw [el, er, row_lower]

end Cert.ReferenceIdeal.RefValue

end
-- ==== Proof.lean ====
/-
  A GraphSAGE layer with mean aggregation: the kernel against its reference, on the extended reals.

      out[r, j] = ∑_d mean[r, d] · W[d, j] + ∑_d x[r, d] · W[512 + d, j] + b[j],
      mean[r, d] = (∑_k a[r, k] · x[k, d]) / (∑_k a[r, k]),     a = the neighbour mask of the adjacency matrix.

  The reference takes the mask to be the indicator of "the entry is 1", sums it along the rows for the degree,
  multiplies it with the features, divides, and multiplies the concatenated row [mean | x] with the whole weight
  matrix. The kernel reads the adjacency entries as numbers, appends a column of ones to the features so that ONE
  product with a strip of 400 rows of the adjacency matrix gives the neighbours' sums and the degree together, divides,
  and adds the two products with the two halves of the weights; the 25 strips tile the rows.

  The two agree where the adjacency matrix holds only zeros and ones — the precondition's last conjunct — because there
  an entry read as a number IS the indicator of "the entry is 1". Everything else is re-association of finite sums
  (a sum over 1024 columns split into its halves, a product with a column of ones), which holds on the extended
  reals without any finiteness; a node without neighbours gives the same quotient by zero on both sides.

  The frames are the programs' own runs; the idealization rewrote nothing.
-/
import proofs.«136506_g85529978732852_cont_9to1c4b_72_21_alg».proof.Defs
import proofs.«136506_g85529978732852_cont_9to1c4b_72_21_alg».proof.Proof.Gen.Kernel
import proofs.«136506_g85529978732852_cont_9to1c4b_72_21_alg».proof.Proof.Gen.Kernel.Skeleton
import proofs.«136506_g85529978732852_cont_9to1c4b_72_21_alg».proof.Proof.Gen.Kernel.Launch
import proofs.«136506_g85529978732852_cont_9to1c4b_72_21_alg».proof.Proof.Gen.Kernel.Points
import proofs.«136506_g85529978732852_cont_9to1c4b_72_21_alg».proof.Proof.Gen.Kernel.Frame
import proofs.«136506_g85529978732852_cont_9to1c4b_72_21_alg».proof.Proof.Gen.KernelIdeal
import proofs.«136506_g85529978732852_cont_9to1c4b_72_21_alg».proof.Proof.Gen.KernelIdeal.Skeleton
import proofs.«136506_g85529978732852_cont_9to1c4b_72_21_alg».proof.Proof.Gen.KernelIdeal.Launch
import proofs.«136506_g85529978732852_cont_9to1c4b_72_21_alg».proof.Proof.Gen.KernelIdeal.Points
import proofs.«136506_g85529978732852_cont_9to1c4b_72_21_alg».proof.Proof.Gen.KernelIdeal.Frame
import proofs.«136506_g85529978732852_cont_9to1c4b_72_21_alg».proof.Proof.Gen.ReferenceIdeal
import proofs.«136506_g85529978732852_cont_9to1c4b_72_21_alg».proof.Proof.Gen.Pre_finite_inputs
import proofs.«136506_g85529978732852_cont_9to1c4b_72_21_alg».proof.Proof.Gen.KernelIdeal.Value
import proofs.«136506_g85529978732852_cont_9to1c4b_72_21_alg».proof.Proof.Gen.ReferenceIdeal.Run
import proofs.«136506_g85529978732852_cont_9to1c4b_72_21_alg».proof.Proof.Gen.ReferenceIdeal.Read
import proofs.«136506_g85529978732852_cont_9to1c4b_72_21_alg».proof.Proof.LayerRun
import proofs.«136506_g85529978732852_cont_9to1c4b_72_21_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- Both programs end with the layer of the arguments in their result arrays: the kernel with the adjacency entries
    read as numbers, the reference with the indicator of "the entry is 1", which on a matrix of zeros and ones are
    the same weights. -/
theorem algebraic : Cert.algebraic_KernelIdeal_ReferenceIdeal := by
  intro m ρ m' ρ' hpre hagree
  refine ⟨fun c => Cert.KernelIdeal.LayerRun.result m c, Cert.KernelIdeal.LayerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2]
  show _ = Cert.KernelIdeal.LayerRun.result m c
  unfold Cert.KernelIdeal.LayerRun.result
  rw [Cert.AdjDomain.asNumber_eq_indicator _ (Cert.AdjDomain.zero_or_one _ _ _ _ (hpre c))]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
